-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 43
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096x512, .bf16⟩
  | .hbm, ⟨31, _⟩ => ⟨S4096x1, .i32⟩
  | .hbm, ⟨32, _⟩ => ⟨S1x4096, .i32⟩
  | .hbm, ⟨33, _⟩ => ⟨S4096x1, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S1x512, .i32⟩
  | .local _ .vmem, ⟨3, _⟩ => ⟨S1x512, .i32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096 : S_.BroadcastsInDim S4096 (![] : Fin 0 → Fin S4096.rank)
  bitsLt_bf16_f32 : FTy.bits .bf16 < FTy.bits .f32
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  iota_S512x512_d0_w32 : S512x512.Iotas .tc 32 [0]
  iota_S512x512_d1_w32 : S512x512.Iotas .tc 32 [1]
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S4096x1_S4096 : S4096x1.ShapeCasts S4096
  reducesTo_S4096_S_d0 : S4096.ReducesTo [0] S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .i32 = 32 ∨ (Rect.block (s := S1x4096) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v22) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S4096x4096, .i1⟩
  | .hbm, ⟨46, _⟩ => ⟨S4096x4096, .i1⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096 : S_.BroadcastsInDim S4096 (![] : Fin 0 → Fin S4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  reducesTo_S4096_S_d0 : S4096.ReducesTo [0] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.K.Cases.lean ====
/-
  The grid of the pairwise kernel is 8 row blocks by 8 column blocks, walked row block by row block. At the first
  column block of each row block the body clears the running column of row sums before it adds the block's
  contribution; at the other seven it adds to what the column block before left. This module fixes the two cases:
  the branch condition in closed form over the 64 grid points, and names for the staging buffers the body is called
  with at a point.
-/
import proofs.«158266_j31018253811874_1_alg».proof.Proof.Gen.Kernel.Launch
import proofs.«158266_j31018253811874_1_alg».proof.Proof.Gen.Kernel.Skeleton
import proofs.«158266_j31018253811874_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: "the column-block coordinate is zero", as the body computes it from the grid point. -/
abbrev firstCol (i : grid0.Coords) : Prop :=
  (Scalar.cmpi .ne (Scalar.extui (Scalar.cmpi .eq (BitVec.ofNat 32 (i 1).val) 0#32)) 0#32) = 1#1

/-- It holds exactly at the points whose position is a multiple of 8: the first column block of each row block. -/
theorem firstCol_iff : ∀ t : Fin cfg0.N, firstCol (grid0.coords t) ↔ t.val % 8 = 0 :=
  (by decide +kernel : ∀ t : Fin grid0.N, firstCol (grid0.coords t) ↔ t.val % 8 = 0)

/-- One staging buffer of the output window, through which its contents are stated. -/
abbrev outView : View sig .tc .vmem S512x1 .f32 := (Memref.whole cc0_stg4_0 : Memref sig .tc .vmem S512x1 .f32).view

/-- Each window's current staging buffer at point `t`, as the pipeline passes it to the body, and its wholeness. -/
abbrev ms0 (t : Fin cfg0.N) : Memref sig .tc .vmem S512x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

end Cert.Kernel.Hand

end
-- ==== Proof.K.RunFirst.lean ====
/-
  The body of the pairwise kernel run once, symbolically, in its FIRST-column-block case.
  At a first column block the body clears the output column, then loads the two label blocks and the two row
  blocks, and stores the cleared column plus the block's masked row sums.
  The statement is a triple over whole staging buffers: the four inputs at given contents come back unchanged, and
  the output's buffer ends with the stores the run finds, as a list of pieces (last store first).
-/
import proofs.«158266_j31018253811874_1_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer in this case, with the proof that from the
    inputs' buffers at `x0 … x3` and the output's at anything the body runs to the continuation holding the inputs as they
    were and the output's buffer with those pieces written. -/
noncomputable def runFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) :
    { L : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__intra_kernel i arg2 harg2 arg3 harg3 arg4 harg4 arg5 harg5 arg6 harg6) K } := by
  refine ⟨?_, fun E K => ?run⟩
  case run =>
    simp only [cc0__intra_kernel_eq_skeleton]; unfold cc0__intra_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunLater.lean ====
/-
  The body of the pairwise kernel run once, symbolically, in its LATER-column-block case.
  At a later column block the body finds in the output column what the column block before left, loads the
  two label blocks and the two row blocks, and stores that column plus the block's masked row sums.
  The statement is a triple over whole staging buffers: the four inputs at given contents come back unchanged, and
  the output's buffer ends with the stores the run finds, as a list of pieces (last store first).
-/
import proofs.«158266_j31018253811874_1_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer in this case, with the proof that from the
    inputs' buffers at `x0 … x3` and the output's at `xo` the body runs to the continuation holding the inputs as they
    were and the output's buffer with those pieces written. -/
noncomputable def runLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) :
    { L : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__intra_kernel i arg2 harg2 arg3 harg3 arg4 harg4 arg5 harg5 arg6 harg6) K } := by
  refine ⟨?_, fun E K => ?run⟩
  case run =>
    simp only [cc0__intra_kernel_eq_skeleton]; unfold cc0__intra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.Data.lean ====
/-
  What the pairwise kernel's pipeline holds, point by point, and the body's obligation at every point.

  The grid point at position `t` is row block `t / 8`, column block `t % 8`. The four input windows hold blocks of
  the arrays the region is entered with: the row block's labels as a column, the column block's labels as a row, the
  row block's and the column block's rows of the normalised matrix (ONE array read through two windows). The output
  window holds the running column of row sums: after a first column block, what the clearing case leaves from the
  input blocks alone; after a later one, what the adding case leaves from the input blocks and the column the point
  before left (`colAt`, by recursion on the position). The column is written back to the result array when the row
  block is finished, at the positions `≡ 7 (mod 8)`.
-/
import proofs.«158266_j31018253811874_1_alg».proof.Proof.K.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s buffers when the region is entered.
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves in the output's buffer -/

/-- The clearing case's stores tile the output block. -/
theorem coverFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) (y : S512x1.Idx) :
    ∃ pc ∈ (runFirst c i arg2 harg2 arg3 harg3 arg4 harg4 arg5 harg5 arg6 harg6 hc x0 x1 x2 x3).1, y ∈ pc.1.set :=
  View.cover_of_tiledL (runFirst c i arg2 harg2 arg3 harg3 arg4 harg4 arg5 harg5 arg6 harg6 hc x0 x1 x2 x3).1 S512x1.size (by sl_kernel_rfl) y

/-- What the clearing case leaves in the output's buffer. -/
def outFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) : Vec F S512x1 .f32 :=
  outView.read (Elt F) (outView.writes (Elt F) outView.junk (runFirst c i arg2 harg2 arg3 harg3 arg4 harg4 arg5 harg5 arg6 harg6 hc x0 x1 x2 x3).1)

/-- The adding case's store tiles the output block. -/
theorem coverLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) (y : S512x1.Idx) :
    ∃ pc ∈ (runLater c i arg2 harg2 arg3 harg3 arg4 harg4 arg5 harg5 arg6 harg6 hc x0 x1 x2 x3 xo).1, y ∈ pc.1.set :=
  View.cover_of_tiledL (runLater c i arg2 harg2 arg3 harg3 arg4 harg4 arg5 harg5 arg6 harg6 hc x0 x1 x2 x3 xo).1 S512x1.size (by sl_kernel_rfl) y

/-- What the adding case leaves in the output's buffer. -/
def outLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) : Vec F S512x1 .f32 :=
  outView.read (Elt F) (outView.writes (Elt F) outView.junk (runLater c i arg2 harg2 arg3 harg3 arg4 harg4 arg5 harg5 arg6 harg6 hc x0 x1 x2 x3 xo).1)

/-! ## The running column after each point -/

/-- The output's buffer after the body at position `n`: the clearing case at a first column block, the adding case
    over what position `n - 1` left otherwise. -/
def colAt (c : Dev nD) : (n : ℕ) → n < cfg0.N → Vec F S512x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((firstCol_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((firstCol_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((firstCol_iff ⟨n + 1, hn⟩).mp h)) (iblk V c 0 ⟨n + 1, hn⟩) (iblk V c 1 ⟨n + 1, hn⟩) (iblk V c 2 ⟨n + 1, hn⟩) (iblk V c 3 ⟨n + 1, hn⟩)
        (colAt c n (Nat.lt_of_succ_lt hn))

/-- `colAt` at a first column block. -/
theorem colAt_first (c : Dev nD) (t : Fin cfg0.N) (h0 : t.val % 8 = 0) :
    colAt V c t.val t.isLt = outFirst c (grid0.coords t) (ms0 t) (hs0 t) (ms1 t) (hs1 t) (ms2 t) (hs2 t) (ms3 t) (hs3 t) (ms4 t) (hs4 t)
      ((firstCol_iff t).mpr h0) (iblk V c 0 t) (iblk V c 1 t) (iblk V c 2 t) (iblk V c 3 t) := by
  obtain ⟨n, hn⟩ := t
  cases n with
  | zero => exact rfl
  | succ n => exact (dif_pos h0).trans rfl

/-- `colAt` at a later column block: the adding case over what the point before left. -/
theorem colAt_later (c : Dev nD) (t : Fin cfg0.N) (h0 : ¬t.val % 8 = 0) :
    colAt V c t.val t.isLt = outLater c (grid0.coords t) (ms0 t) (hs0 t) (ms1 t) (hs1 t) (ms2 t) (hs2 t) (ms3 t) (hs3 t) (ms4 t) (hs4 t)
      (fun h => h0 ((firstCol_iff t).mp h)) (iblk V c 0 t) (iblk V c 1 t) (iblk V c 2 t) (iblk V c 3 t)
      (colAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its block
    and the output's at `colAt`; the invariant the scoped rest and the generator register; nothing owed. The matrix of
    normalised rows is held through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => colAt V c t.val t.isLt
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = colAt V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- At a later column block the output's current staging buffer holds what the body left at the point before: the
    point is not the first and the column was not written back in between. -/
theorem before_4_later (c : Dev nD) (t : Fin cfg0.N) (h0 : ¬t.val % 8 = 0) (d) :
    (dat V c).before 4 t d = colAt V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat]

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; the position decides the case; at a later column
    block the output's buffer holds what the point before left; so the case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 64 := lt_of_lt_of_eq t.isLt (show cfg0.N = 64 from N_0)
  by_cases h0 : t.val % 8 = 0
  · rw [colAt_first V c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstCol_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [colAt_later V c t h0]
    simp only [before_4_later V c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstCol_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.K.Launch.lean ====
/-
  The whole program around the pairwise kernel, run from the launch to the return.

  @main is thirty host operations (the two normalisations, the per-sample exponential, the cast of the normalised
  matrix, the two reshapes of the labels), the kernel region, and nine more host operations (the reshape of the
  region's column, the quotient, logarithm, sign, mean). The run is stated segment by segment over the contents of
  every unscoped buffer: at launch, after the first stretch, at the region's exit — where only the region's result
  array differs from its entry —, and after the second stretch. The one array the region reads through two windows
  is split between them, half a share each, at the entry and joined again at the exit.
-/
import proofs.«158266_j31018253811874_1_alg».proof.Proof.K.Data
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The region's result array after the last write-back. -/
def finalOut (c : Dev nD) : Buf (Elt F) ((cfg0.win 4).arr.view.loc (c : Thread nD τ)) := (dat (V1 m ρ) c).arrAt 4 cfg0.N
/-- At the region's exit: its result array at what the write-backs left, every other buffer as entered. -/
def W2 (c : Dev nD) : Valuation τ sig (Elt F) :=
  Function.update (W1 m ρ c) (Proc.devRef .tc main_v24) (finalOut m ρ c)
/-- After the second stretch of host operations: the return. -/
abbrev W3 : Dev nD → Valuation τ sig (Elt F) := fun c => StableHlo.after hostOps1 (W2 m ρ c)

theorem W2_out (c : Dev nD) : W2 m ρ c (Proc.devRef .tc main_v24) = finalOut m ρ c := by
  unfold W2; exact Function.update_self _ _ _
theorem W2_of_ne (c : Dev nD) (b : DevRef τ sig) (hb : b ≠ Proc.devRef .tc main_v24) : W2 m ρ c b = W1 m ρ c b := by
  unfold W2; exact Function.update_of_ne hb _ _

/-! ## The region's arrays among the unscoped buffers -/

/-- The four buffers behind the region's five windows. -/
abbrev arrList : List (DevRef τ sig) :=
  [Proc.devRef .tc main_v22, Proc.devRef .tc main_v23, Proc.devRef .tc main_v21, Proc.devRef .tc main_v24]
theorem arrList_nodup : arrList.Nodup := by decide
theorem arrList_sub : arrList.toFinset ⊆ Pipeline.ucRefs τ sig := by decide

/-- The four buffers, each whole at the full share, one after the other. -/
theorem held_arr (c : Dev nD) (W : Valuation τ sig (Elt F)) :
    (StableHlo.held (c : Thread nD τ) arrList.toFinset W : sProp 𝕄)
      = iprop((((c : Thread nD τ).1, Proc.devRef .tc main_v22) ↦{fullShare} W (Proc.devRef .tc main_v22))
          ∗ (((c : Thread nD τ).1, Proc.devRef .tc main_v23) ↦{fullShare} W (Proc.devRef .tc main_v23))
          ∗ (((c : Thread nD τ).1, Proc.devRef .tc main_v21) ↦{fullShare} W (Proc.devRef .tc main_v21))
          ∗ (((c : Thread nD τ).1, Proc.devRef .tc main_v24) ↦{fullShare} W (Proc.devRef .tc main_v24))) := by
  unfold StableHlo.held
  rw [bigSep_eq_bigSepL _ arrList_nodup]
  rfl

variable (V : (c : Dev nD) → (b : Ref sig .tc) → Buf (Elt F) ((c : Thread nD τ).loc b))

/-- The pipeline's arrays window by window: the labels as a column and as a row and the result held outright, the
    normalised matrix at half a share through each of its two windows. -/
theorem arrays_chain (c : Dev nD) (Fw : (w : Fin cfg0.W) → Buf (Elt F) ((cfg0.win w).arr.view.loc (c : Thread nD τ))) :
    ((dat V c).arrays Fw : sProp 𝕄)
      = iprop((((c : Thread nD τ).1, Proc.devRef .tc main_v22) ↦{fullShare} Fw 0)
          ∗ (((c : Thread nD τ).1, Proc.devRef .tc main_v23) ↦{fullShare} Fw 1)
          ∗ (((c : Thread nD τ).1, Proc.devRef .tc main_v21) ↦{fullShare.left} Fw 2)
          ∗ (((c : Thread nD τ).1, Proc.devRef .tc main_v21) ↦{fullShare.right} Fw 3)
          ∗ (((c : Thread nD τ).1, Proc.devRef .tc main_v24) ↦{fullShare} Fw 4)) := by
  unfold Dat.arrays
  rw [bigSep_W0]
  rw [(arr_whole0 0).set_eq_univ, (arr_whole0 1).set_eq_univ, (arr_whole0 2).set_eq_univ, (arr_whole0 4).set_eq_univ]
  rfl

/-- ENTRY: the four buffers at contents `W` are the pipeline's arrays at the same contents, the matrix's share
    halved between its two windows. -/
theorem arrays_of_held (c : Dev nD) (W : Valuation τ sig (Elt F))
    (Fw : (w : Fin cfg0.W) → Buf (Elt F) ((cfg0.win w).arr.view.loc (c : Thread nD τ)))
    (h0 : Fw 0 = W (Proc.devRef .tc main_v22)) (h1 : Fw 1 = W (Proc.devRef .tc main_v23))
    (h2 : Fw 2 = W (Proc.devRef .tc main_v21)) (h3 : Fw 3 = W (Proc.devRef .tc main_v21)) (h4 : Fw 4 = W (Proc.devRef .tc main_v24)) :
    (StableHlo.held (c : Thread nD τ) arrList.toFinset W : sProp 𝕄) ⊢ (dat V c).arrays Fw := by
  rw [held_arr, arrays_chain, h0, h1, h2, h3, h4]
  iintro ⟨H22, H23, H21, H24⟩
  ihave Hs := (pointsTo_share (PosShare.mem_left_op_right fullShare)).1 $$ H21
  icases Hs with ⟨Hl, Hr⟩
  isplitl [H22]; · iexact H22
  isplitl [H23]; · iexact H23
  isplitl [Hl]; · iexact Hl
  isplitl [Hr]; · iexact Hr
  iexact H24

/-- EXIT: the pipeline's arrays at contents that agree with `W` are the four buffers at `W`, the two halves of
    the matrix's share joined. -/
theorem held_of_arrays (c : Dev nD) (W : Valuation τ sig (Elt F))
    (Fw : (w : Fin cfg0.W) → Buf (Elt F) ((cfg0.win w).arr.view.loc (c : Thread nD τ)))
    (h0 : Fw 0 = W (Proc.devRef .tc main_v22)) (h1 : Fw 1 = W (Proc.devRef .tc main_v23))
    (h2 : Fw 2 = W (Proc.devRef .tc main_v21)) (h3 : Fw 3 = W (Proc.devRef .tc main_v21)) (h4 : Fw 4 = W (Proc.devRef .tc main_v24)) :
    ((dat V c).arrays Fw : sProp 𝕄) ⊢ StableHlo.held (c : Thread nD τ) arrList.toFinset W := by
  rw [held_arr, arrays_chain, h0, h1, h2, h3, h4]
  iintro ⟨H22, H23, Hl, Hr, H24⟩
  isplitl [H22]; · iexact H22
  isplitl [H23]; · iexact H23
  isplitl [Hl Hr]
  · iapply (pointsTo_share (PosShare.mem_left_op_right fullShare)).2
    isplitl [Hl] <;> iassumption
  iexact H24

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of either stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the contents after the second stretch, the generator register. -/
abbrev Tₙ (c : Dev nD) : sProp 𝕄 := iprop(StableHlo.held (c : Thread nD τ) (Pipeline.ucRefs τ sig) (W3 m ρ c) ∗ ∃ r, prngReg c r)

/-- Off the region's four buffers the exit contents are the entry contents. -/
theorem rest_congr (c : Dev nD) :
    (StableHlo.held (c : Thread nD τ) (Pipeline.ucRefs τ sig \ arrList.toFinset) (W2 m ρ c) : sProp 𝕄)
      = StableHlo.held (c : Thread nD τ) (Pipeline.ucRefs τ sig \ arrList.toFinset) (W1 m ρ c) :=
  StableHlo.held_congr _ fun b hb => W2_of_ne m ρ c b fun e => (Finset.mem_sdiff.mp hb).2 (by rw [e]; decide)

/-! ## The region as a segment -/

set_option backward.isDefEq.respectTransparency.types false in
/-- The region over the thread state: entered from every unscoped buffer at the entry contents, left at the exit
    contents. Its arrays are taken out of the unscoped buffers and put back; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := StableHlo.held (c : Thread nD τ) (Pipeline.ucRefs τ sig \ arrList.toFinset) (W1 m ρ c)
  hentry c := by
    rw [Pipeline.ownSems0_none, StableHlo.held_sub_split (c : Thread nD τ) arrList_sub]
    have hsplit := arrays_of_held (V1 m ρ) c (W1 m ρ c) ((pdats m ρ 0 c).arrAt · 0) rfl rfl rfl rfl rfl
    iintro ⟨⟨⟨Harr, Hrest⟩, Hp, HO⟩, -, -⟩
    ihave Ha := hsplit $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrList_sub (W2 m ρ c), rest_congr]
    have hjoin : ((pdats m ρ 0 c).arrays ((pdats m ρ 0 c).arrAt · (Pipeline.pin (pcfgs (F := F)) adm 0).N) : sProp 𝕄)
        ⊢ StableHlo.held (c : Thread nD τ) arrList.toFinset (W2 m ρ c) := held_of_arrays (V1 m ρ) c (W2 m ρ c) ((pdats m ρ 0 c).arrAt · cfg0.N)
      (((dat (V1 m ρ) c).arrAt_in 0 rfl _).trans ((A_eq (V1 m ρ) c 0).trans (W2_of_ne m ρ c (Proc.devRef .tc main_v22) (StableHlo.devRef_ne_of_ne (by decide))).symm))
      (((dat (V1 m ρ) c).arrAt_in 1 rfl _).trans ((A_eq (V1 m ρ) c 1).trans (W2_of_ne m ρ c (Proc.devRef .tc main_v23) (StableHlo.devRef_ne_of_ne (by decide))).symm))
      (((dat (V1 m ρ) c).arrAt_in 2 rfl _).trans ((A_eq (V1 m ρ) c 2).trans (W2_of_ne m ρ c (Proc.devRef .tc main_v21) (StableHlo.devRef_ne_of_ne (by decide))).symm))
      (((dat (V1 m ρ) c).arrAt_in 3 rfl _).trans ((A_eq (V1 m ρ) c 3).trans (W2_of_ne m ρ c (Proc.devRef .tc main_v21) (StableHlo.devRef_ne_of_ne (by decide))).symm))
      (W2_out m ρ c).symm
    iintro ⟨Ha, HO, HY, Hrest⟩
    ihave Harr := hjoin $$ Ha
    imodintro
    isplitl [Harr Hrest]
    · isplitl [Harr] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the contents the
    segments compute (`W3`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => show iprop(StableHlo.held (c : Thread nD τ) (Pipeline.ucRefs τ sig) (W3 m ρ c) ∗ R c) ⊢ iprop(Tₙ m ρ c ∗ ∃ W, owes (c : Thread nD τ) (0 : CellTallies nD τ sig Unit) W) from by
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- info: 'Cert.Kernel.Hand.run_main' depends on axioms: [propext, Classical.choice, Quot.sound] -/
#guard_msgs in #print axioms run_main

end Cert.Kernel.Hand

end
-- ==== Proof.K.Frame.lean ====
/-
  The three argument arrays end as launched: every host operation writes a fresh buffer of its own, and the region
  writes back only its result array; so the contents after the last segment, read at an argument, walk back to the
  launch memory.
-/
import proofs.«158266_j31018253811874_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c _ (StableHlo.devRef_ne_of_ne (by decide))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- No host operation and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c _ (StableHlo.devRef_ne_of_ne (by decide))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- No host operation and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c _ (StableHlo.devRef_ne_of_ne (by decide))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- THE FRAME: from any memory with zero counters every weakly fair execution of @main terminates, nothing
    faulting, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Hand

end
-- ==== Proof.KI.Cases.lean ====
/-
  The grid of the pairwise kernel is 8 row blocks by 8 column blocks, walked row block by row block. At the first
  column block of each row block the body clears the running column of row sums before it adds the block's
  contribution; at the other seven it adds to what the column block before left. This module fixes the two cases:
  the branch condition in closed form over the 64 grid points, and names for the staging buffers the body is called
  with at a point.
-/
import proofs.«158266_j31018253811874_1_alg».proof.Proof.Gen.KernelIdeal.Launch
import proofs.«158266_j31018253811874_1_alg».proof.Proof.Gen.KernelIdeal.Skeleton
import proofs.«158266_j31018253811874_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: "the column-block coordinate is zero", as the body computes it from the grid point. -/
abbrev firstCol (i : grid0.Coords) : Prop :=
  (Scalar.cmpi .ne (Scalar.extui (Scalar.cmpi .eq (BitVec.ofNat 32 (i 1).val) 0#32)) 0#32) = 1#1

/-- It holds exactly at the points whose position is a multiple of 8: the first column block of each row block. -/
theorem firstCol_iff : ∀ t : Fin cfg0.N, firstCol (grid0.coords t) ↔ t.val % 8 = 0 :=
  (by decide +kernel : ∀ t : Fin grid0.N, firstCol (grid0.coords t) ↔ t.val % 8 = 0)

/-- One staging buffer of the output window, through which its contents are stated. -/
abbrev outView : View sig .tc .vmem S512x1 .f32 := (Memref.whole cc0_stg4_0 : Memref sig .tc .vmem S512x1 .f32).view

/-- Each window's current staging buffer at point `t`, as the pipeline passes it to the body, and its wholeness. -/
abbrev ms0 (t : Fin cfg0.N) : Memref sig .tc .vmem S512x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

end Cert.KernelIdeal.Hand

end
-- ==== Proof.KI.RunFirst.lean ====
/-
  The body of the pairwise kernel run once, symbolically, in its FIRST-column-block case.
  At a first column block the body clears the output column, then loads the two label blocks and the two row
  blocks, and stores the cleared column plus the block's masked row sums.
  The statement is a triple over whole staging buffers: the four inputs at given contents come back unchanged, and
  the output's buffer ends with the stores the run finds, as a list of pieces (last store first).
-/
import proofs.«158266_j31018253811874_1_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer in this case, with the proof that from the
    inputs' buffers at `x0 … x3` and the output's at anything the body runs to the continuation holding the inputs as they
    were and the output's buffer with those pieces written. -/
noncomputable def runFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) :
    { L : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__intra_kernel i arg2 harg2 arg3 harg3 arg4 harg4 arg5 harg5 arg6 harg6) K } := by
  refine ⟨?_, fun E K => ?run⟩
  case run =>
    simp only [cc0__intra_kernel_eq_skeleton]; unfold cc0__intra_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunLater.lean ====
/-
  The body of the pairwise kernel run once, symbolically, in its LATER-column-block case.
  At a later column block the body finds in the output column what the column block before left, loads the
  two label blocks and the two row blocks, and stores that column plus the block's masked row sums.
  The statement is a triple over whole staging buffers: the four inputs at given contents come back unchanged, and
  the output's buffer ends with the stores the run finds, as a list of pieces (last store first).
-/
import proofs.«158266_j31018253811874_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer in this case, with the proof that from the
    inputs' buffers at `x0 … x3` and the output's at `xo` the body runs to the continuation holding the inputs as they
    were and the output's buffer with those pieces written. -/
noncomputable def runLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) :
    { L : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__intra_kernel i arg2 harg2 arg3 harg3 arg4 harg4 arg5 harg5 arg6 harg6) K } := by
  refine ⟨?_, fun E K => ?run⟩
  case run =>
    simp only [cc0__intra_kernel_eq_skeleton]; unfold cc0__intra_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Data.lean ====
/-
  What the pairwise kernel's pipeline holds, point by point, and the body's obligation at every point.

  The grid point at position `t` is row block `t / 8`, column block `t % 8`. The four input windows hold blocks of
  the arrays the region is entered with: the row block's labels as a column, the column block's labels as a row, the
  row block's and the column block's rows of the normalised matrix (ONE array read through two windows). The output
  window holds the running column of row sums: after a first column block, what the clearing case leaves from the
  input blocks alone; after a later one, what the adding case leaves from the input blocks and the column the point
  before left (`colAt`, by recursion on the position). The column is written back to the result array when the row
  block is finished, at the positions `≡ 7 (mod 8)`.
-/
import proofs.«158266_j31018253811874_1_alg».proof.Proof.KI.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s buffers when the region is entered.
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves in the output's buffer -/

/-- The clearing case's stores tile the output block. -/
theorem coverFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) (y : S512x1.Idx) :
    ∃ pc ∈ (runFirst c i arg2 harg2 arg3 harg3 arg4 harg4 arg5 harg5 arg6 harg6 hc x0 x1 x2 x3).1, y ∈ pc.1.set :=
  View.cover_of_tiledL (runFirst c i arg2 harg2 arg3 harg3 arg4 harg4 arg5 harg5 arg6 harg6 hc x0 x1 x2 x3).1 S512x1.size (by sl_kernel_rfl) y

/-- What the clearing case leaves in the output's buffer. -/
def outFirst (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) : Vec F S512x1 .f32 :=
  outView.read (Elt F) (outView.writes (Elt F) outView.junk (runFirst c i arg2 harg2 arg3 harg3 arg4 harg4 arg5 harg5 arg6 harg6 hc x0 x1 x2 x3).1)

/-- The adding case's store tiles the output block. -/
theorem coverLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) (y : S512x1.Idx) :
    ∃ pc ∈ (runLater c i arg2 harg2 arg3 harg3 arg4 harg4 arg5 harg5 arg6 harg6 hc x0 x1 x2 x3 xo).1, y ∈ pc.1.set :=
  View.cover_of_tiledL (runLater c i arg2 harg2 arg3 harg3 arg4 harg4 arg5 harg5 arg6 harg6 hc x0 x1 x2 x3 xo).1 S512x1.size (by sl_kernel_rfl) y

/-- What the adding case leaves in the output's buffer. -/
def outLater (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) : Vec F S512x1 .f32 :=
  outView.read (Elt F) (outView.writes (Elt F) outView.junk (runLater c i arg2 harg2 arg3 harg3 arg4 harg4 arg5 harg5 arg6 harg6 hc x0 x1 x2 x3 xo).1)

/-! ## The running column after each point -/

/-- The output's buffer after the body at position `n`: the clearing case at a first column block, the adding case
    over what position `n - 1` left otherwise. -/
def colAt (c : Dev nD) : (n : ℕ) → n < cfg0.N → Vec F S512x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((firstCol_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((firstCol_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((firstCol_iff ⟨n + 1, hn⟩).mp h)) (iblk V c 0 ⟨n + 1, hn⟩) (iblk V c 1 ⟨n + 1, hn⟩) (iblk V c 2 ⟨n + 1, hn⟩) (iblk V c 3 ⟨n + 1, hn⟩)
        (colAt c n (Nat.lt_of_succ_lt hn))

/-- `colAt` at a first column block. -/
theorem colAt_first (c : Dev nD) (t : Fin cfg0.N) (h0 : t.val % 8 = 0) :
    colAt V c t.val t.isLt = outFirst c (grid0.coords t) (ms0 t) (hs0 t) (ms1 t) (hs1 t) (ms2 t) (hs2 t) (ms3 t) (hs3 t) (ms4 t) (hs4 t)
      ((firstCol_iff t).mpr h0) (iblk V c 0 t) (iblk V c 1 t) (iblk V c 2 t) (iblk V c 3 t) := by
  obtain ⟨n, hn⟩ := t
  cases n with
  | zero => exact rfl
  | succ n => exact (dif_pos h0).trans rfl

/-- `colAt` at a later column block: the adding case over what the point before left. -/
theorem colAt_later (c : Dev nD) (t : Fin cfg0.N) (h0 : ¬t.val % 8 = 0) :
    colAt V c t.val t.isLt = outLater c (grid0.coords t) (ms0 t) (hs0 t) (ms1 t) (hs1 t) (ms2 t) (hs2 t) (ms3 t) (hs3 t) (ms4 t) (hs4 t)
      (fun h => h0 ((firstCol_iff t).mp h)) (iblk V c 0 t) (iblk V c 1 t) (iblk V c 2 t) (iblk V c 3 t)
      (colAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its block
    and the output's at `colAt`; the invariant the scoped rest and the generator register; nothing owed. The matrix of
    normalised rows is held through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => colAt V c t.val t.isLt
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = colAt V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- At a later column block the output's current staging buffer holds what the body left at the point before: the
    point is not the first and the column was not written back in between. -/
theorem before_4_later (c : Dev nD) (t : Fin cfg0.N) (h0 : ¬t.val % 8 = 0) (d) :
    (dat V c).before 4 t d = colAt V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat]

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; the position decides the case; at a later column
    block the output's buffer holds what the point before left; so the case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 64 := lt_of_lt_of_eq t.isLt (show cfg0.N = 64 from N_0)
  by_cases h0 : t.val % 8 = 0
  · rw [colAt_first V c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstCol_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [colAt_later V c t h0]
    simp only [before_4_later V c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstCol_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KI.Launch.lean ====
/-
  The whole program around the pairwise kernel, run from the launch to the return.

  @main is thirty host operations (the two normalisations, the per-sample exponential, the cast of the normalised
  matrix, the two reshapes of the labels), the kernel region, and nine more host operations (the reshape of the
  region's column, the quotient, logarithm, sign, mean). The run is stated segment by segment over the contents of
  every unscoped buffer: at launch, after the first stretch, at the region's exit — where only the region's result
  array differs from its entry —, and after the second stretch. The one array the region reads through two windows
  is split between them, half a share each, at the entry and joined again at the exit.
-/
import proofs.«158266_j31018253811874_1_alg».proof.Proof.KI.Data
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The region's result array after the last write-back. -/
def finalOut (c : Dev nD) : Buf (Elt F) ((cfg0.win 4).arr.view.loc (c : Thread nD τ)) := (dat (V1 m ρ) c).arrAt 4 cfg0.N
/-- At the region's exit: its result array at what the write-backs left, every other buffer as entered. -/
def W2 (c : Dev nD) : Valuation τ sig (Elt F) :=
  Function.update (W1 m ρ c) (Proc.devRef .tc main_v24) (finalOut m ρ c)
/-- After the second stretch of host operations: the return. -/
abbrev W3 : Dev nD → Valuation τ sig (Elt F) := fun c => StableHlo.after hostOps1 (W2 m ρ c)

theorem W2_out (c : Dev nD) : W2 m ρ c (Proc.devRef .tc main_v24) = finalOut m ρ c := by
  unfold W2; exact Function.update_self _ _ _
theorem W2_of_ne (c : Dev nD) (b : DevRef τ sig) (hb : b ≠ Proc.devRef .tc main_v24) : W2 m ρ c b = W1 m ρ c b := by
  unfold W2; exact Function.update_of_ne hb _ _

/-! ## The region's arrays among the unscoped buffers -/

/-- The four buffers behind the region's five windows. -/
abbrev arrList : List (DevRef τ sig) :=
  [Proc.devRef .tc main_v22, Proc.devRef .tc main_v23, Proc.devRef .tc main_v21, Proc.devRef .tc main_v24]
theorem arrList_nodup : arrList.Nodup := by decide
theorem arrList_sub : arrList.toFinset ⊆ Pipeline.ucRefs τ sig := by decide

/-- The four buffers, each whole at the full share, one after the other. -/
theorem held_arr (c : Dev nD) (W : Valuation τ sig (Elt F)) :
    (StableHlo.held (c : Thread nD τ) arrList.toFinset W : sProp 𝕄)
      = iprop((((c : Thread nD τ).1, Proc.devRef .tc main_v22) ↦{fullShare} W (Proc.devRef .tc main_v22))
          ∗ (((c : Thread nD τ).1, Proc.devRef .tc main_v23) ↦{fullShare} W (Proc.devRef .tc main_v23))
          ∗ (((c : Thread nD τ).1, Proc.devRef .tc main_v21) ↦{fullShare} W (Proc.devRef .tc main_v21))
          ∗ (((c : Thread nD τ).1, Proc.devRef .tc main_v24) ↦{fullShare} W (Proc.devRef .tc main_v24))) := by
  unfold StableHlo.held
  rw [bigSep_eq_bigSepL _ arrList_nodup]
  rfl

variable (V : (c : Dev nD) → (b : Ref sig .tc) → Buf (Elt F) ((c : Thread nD τ).loc b))

/-- The pipeline's arrays window by window: the labels as a column and as a row and the result held outright, the
    normalised matrix at half a share through each of its two windows. -/
theorem arrays_chain (c : Dev nD) (Fw : (w : Fin cfg0.W) → Buf (Elt F) ((cfg0.win w).arr.view.loc (c : Thread nD τ))) :
    ((dat V c).arrays Fw : sProp 𝕄)
      = iprop((((c : Thread nD τ).1, Proc.devRef .tc main_v22) ↦{fullShare} Fw 0)
          ∗ (((c : Thread nD τ).1, Proc.devRef .tc main_v23) ↦{fullShare} Fw 1)
          ∗ (((c : Thread nD τ).1, Proc.devRef .tc main_v21) ↦{fullShare.left} Fw 2)
          ∗ (((c : Thread nD τ).1, Proc.devRef .tc main_v21) ↦{fullShare.right} Fw 3)
          ∗ (((c : Thread nD τ).1, Proc.devRef .tc main_v24) ↦{fullShare} Fw 4)) := by
  unfold Dat.arrays
  rw [bigSep_W0]
  rw [(arr_whole0 0).set_eq_univ, (arr_whole0 1).set_eq_univ, (arr_whole0 2).set_eq_univ, (arr_whole0 4).set_eq_univ]
  rfl

/-- ENTRY: the four buffers at contents `W` are the pipeline's arrays at the same contents, the matrix's share
    halved between its two windows. -/
theorem arrays_of_held (c : Dev nD) (W : Valuation τ sig (Elt F))
    (Fw : (w : Fin cfg0.W) → Buf (Elt F) ((cfg0.win w).arr.view.loc (c : Thread nD τ)))
    (h0 : Fw 0 = W (Proc.devRef .tc main_v22)) (h1 : Fw 1 = W (Proc.devRef .tc main_v23))
    (h2 : Fw 2 = W (Proc.devRef .tc main_v21)) (h3 : Fw 3 = W (Proc.devRef .tc main_v21)) (h4 : Fw 4 = W (Proc.devRef .tc main_v24)) :
    (StableHlo.held (c : Thread nD τ) arrList.toFinset W : sProp 𝕄) ⊢ (dat V c).arrays Fw := by
  rw [held_arr, arrays_chain, h0, h1, h2, h3, h4]
  iintro ⟨H22, H23, H21, H24⟩
  ihave Hs := (pointsTo_share (PosShare.mem_left_op_right fullShare)).1 $$ H21
  icases Hs with ⟨Hl, Hr⟩
  isplitl [H22]; · iexact H22
  isplitl [H23]; · iexact H23
  isplitl [Hl]; · iexact Hl
  isplitl [Hr]; · iexact Hr
  iexact H24

/-- EXIT: the pipeline's arrays at contents that agree with `W` are the four buffers at `W`, the two halves of
    the matrix's share joined. -/
theorem held_of_arrays (c : Dev nD) (W : Valuation τ sig (Elt F))
    (Fw : (w : Fin cfg0.W) → Buf (Elt F) ((cfg0.win w).arr.view.loc (c : Thread nD τ)))
    (h0 : Fw 0 = W (Proc.devRef .tc main_v22)) (h1 : Fw 1 = W (Proc.devRef .tc main_v23))
    (h2 : Fw 2 = W (Proc.devRef .tc main_v21)) (h3 : Fw 3 = W (Proc.devRef .tc main_v21)) (h4 : Fw 4 = W (Proc.devRef .tc main_v24)) :
    ((dat V c).arrays Fw : sProp 𝕄) ⊢ StableHlo.held (c : Thread nD τ) arrList.toFinset W := by
  rw [held_arr, arrays_chain, h0, h1, h2, h3, h4]
  iintro ⟨H22, H23, Hl, Hr, H24⟩
  isplitl [H22]; · iexact H22
  isplitl [H23]; · iexact H23
  isplitl [Hl Hr]
  · iapply (pointsTo_share (PosShare.mem_left_op_right fullShare)).2
    isplitl [Hl] <;> iassumption
  iexact H24

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of either stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the contents after the second stretch, the generator register. -/
abbrev Tₙ (c : Dev nD) : sProp 𝕄 := iprop(StableHlo.held (c : Thread nD τ) (Pipeline.ucRefs τ sig) (W3 m ρ c) ∗ ∃ r, prngReg c r)

/-- Off the region's four buffers the exit contents are the entry contents. -/
theorem rest_congr (c : Dev nD) :
    (StableHlo.held (c : Thread nD τ) (Pipeline.ucRefs τ sig \ arrList.toFinset) (W2 m ρ c) : sProp 𝕄)
      = StableHlo.held (c : Thread nD τ) (Pipeline.ucRefs τ sig \ arrList.toFinset) (W1 m ρ c) :=
  StableHlo.held_congr _ fun b hb => W2_of_ne m ρ c b fun e => (Finset.mem_sdiff.mp hb).2 (by rw [e]; decide)

/-! ## The region as a segment -/

set_option backward.isDefEq.respectTransparency.types false in
/-- The region over the thread state: entered from every unscoped buffer at the entry contents, left at the exit
    contents. Its arrays are taken out of the unscoped buffers and put back; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := StableHlo.held (c : Thread nD τ) (Pipeline.ucRefs τ sig \ arrList.toFinset) (W1 m ρ c)
  hentry c := by
    rw [Pipeline.ownSems0_none, StableHlo.held_sub_split (c : Thread nD τ) arrList_sub]
    have hsplit := arrays_of_held (V1 m ρ) c (W1 m ρ c) ((pdats m ρ 0 c).arrAt · 0) rfl rfl rfl rfl rfl
    iintro ⟨⟨⟨Harr, Hrest⟩, Hp, HO⟩, -, -⟩
    ihave Ha := hsplit $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrList_sub (W2 m ρ c), rest_congr]
    have hjoin : ((pdats m ρ 0 c).arrays ((pdats m ρ 0 c).arrAt · (Pipeline.pin (pcfgs (F := F)) adm 0).N) : sProp 𝕄)
        ⊢ StableHlo.held (c : Thread nD τ) arrList.toFinset (W2 m ρ c) := held_of_arrays (V1 m ρ) c (W2 m ρ c) ((pdats m ρ 0 c).arrAt · cfg0.N)
      (((dat (V1 m ρ) c).arrAt_in 0 rfl _).trans ((A_eq (V1 m ρ) c 0).trans (W2_of_ne m ρ c (Proc.devRef .tc main_v22) (StableHlo.devRef_ne_of_ne (by decide))).symm))
      (((dat (V1 m ρ) c).arrAt_in 1 rfl _).trans ((A_eq (V1 m ρ) c 1).trans (W2_of_ne m ρ c (Proc.devRef .tc main_v23) (StableHlo.devRef_ne_of_ne (by decide))).symm))
      (((dat (V1 m ρ) c).arrAt_in 2 rfl _).trans ((A_eq (V1 m ρ) c 2).trans (W2_of_ne m ρ c (Proc.devRef .tc main_v21) (StableHlo.devRef_ne_of_ne (by decide))).symm))
      (((dat (V1 m ρ) c).arrAt_in 3 rfl _).trans ((A_eq (V1 m ρ) c 3).trans (W2_of_ne m ρ c (Proc.devRef .tc main_v21) (StableHlo.devRef_ne_of_ne (by decide))).symm))
      (W2_out m ρ c).symm
    iintro ⟨Ha, HO, HY, Hrest⟩
    ihave Harr := hjoin $$ Ha
    imodintro
    isplitl [Harr Hrest]
    · isplitl [Harr] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the contents the
    segments compute (`W3`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => show iprop(StableHlo.held (c : Thread nD τ) (Pipeline.ucRefs τ sig) (W3 m ρ c) ∗ R c) ⊢ iprop(Tₙ m ρ c ∗ ∃ W, owes (c : Thread nD τ) (0 : CellTallies nD τ sig Unit) W) from by
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- info: 'Cert.KernelIdeal.Hand.run_main' depends on axioms: [propext, Classical.choice, Quot.sound] -/
#guard_msgs in #print axioms run_main

end Cert.KernelIdeal.Hand

end
-- ==== Proof.KI.Frame.lean ====
/-
  The three argument arrays end as launched: every host operation writes a fresh buffer of its own, and the region
  writes back only its result array; so the contents after the last segment, read at an argument, walk back to the
  launch memory.
-/
import proofs.«158266_j31018253811874_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c _ (StableHlo.devRef_ne_of_ne (by decide))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- No host operation and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c _ (StableHlo.devRef_ne_of_ne (by decide))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- No host operation and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c _ (StableHlo.devRef_ne_of_ne (by decide))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- THE FRAME: from any memory with zero counters every weakly fair execution of @main terminates, nothing
    faulting, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Hand

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.KI.Host.lean ====
/-
  The host stretches around the pairwise kernel, read as values at the ideal instance.

  Before the region both programs run the SAME thirty-odd host operations on the two float inputs: each row is
  divided by the larger of its Euclidean norm and a small floor, and every sample's exponential of twice its inner
  product with its adversarial twin is formed. So what the region finds — the normalised matrix (its change of
  format the identity over the extended reals), the labels as a column and as a row — and the per-sample exponentials
  are the reference's own stages of the inputs. After the region both programs close with the same quotient,
  logarithm, sign and mean (`closing`), the kernel's program on the region's column flattened.
-/
import proofs.«158266_j31018253811874_1_alg».proof.Proof.KI.Launch
import proofs.«158266_j31018253811874_1_alg».proof.Proof.Gen.ReferenceIdeal.Read
import proofs.«158266_j31018253811874_1_alg».proof.Proof.LibColumn
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The closing stretch as one function of the per-sample exponentials `e` and the per-row sums `o`: the mean over
    the rows of `-log (e / (e + o))`. -/
def closing (e o : FVec Ideal S4096 .f32) : FVec Ideal S_ .f32 :=
  Host.divf (F := Ideal) (Host.reduceAdd (F := Ideal) (Host.negf (F := Ideal) (Host.log (F := Ideal) (Host.divf (F := Ideal) e (addf e o))))
    (constant (F := Ideal) S_ .f32 0x00000000#32) Facts₀.reducesTo_S4096_S_d0 Facts₀.h_S_) (constant (F := Ideal) S_ .f32 0x45800000#32)

/-- The program's result is the closing stretch of the per-sample exponentials and the region's column, flattened. -/
theorem W3_result (c : Dev nD) :
    W3 m ρ c (Proc.devRef .tc main_v31)
      = closing (W2 m ρ c (Proc.devRef .tc main_v20)) (shapeCast S4096 (W2 m ρ c (Proc.devRef .tc main_v24)) Facts₀.shapeCasts_S4096x1_S4096) := by
  show StableHlo.after hostOps1 (W2 m ρ c) (Proc.devRef .tc main_v31) = _
  unfold closing
  after_results_simp
  try rfl

/-- The labels as a column are the label vector with a trailing unit axis. -/
theorem W1_v22 (c : Dev nD) :
    W1 m ρ c (Proc.devRef .tc main_v22) = shapeCast S4096x1 (m ((c : Thread nD τ).loc main_arg2)) Facts₀.shapeCasts_S4096_S4096x1 := by
  show StableHlo.after hostOps0 (W0 m ρ c) (Proc.devRef .tc main_v22) = _
  after_results_simp
  try rfl

/-- The labels as a row are the label vector with a leading unit axis. -/
theorem W1_v23 (c : Dev nD) :
    W1 m ρ c (Proc.devRef .tc main_v23) = shapeCast S1x4096 (m ((c : Thread nD τ).loc main_arg2)) Facts₀.shapeCasts_S4096_S1x4096 := by
  show StableHlo.after hostOps0 (W0 m ρ c) (Proc.devRef .tc main_v23) = _
  after_results_simp
  try rfl

/-- The matrix the region reads is the reference's normalised matrix of the first input, its format changed. -/
theorem W1_v21 (c : Dev nD) :
    W1 m ρ c (Proc.devRef .tc main_v21)
      = truncf (F := Ideal) .bf16 (Cert.ReferenceIdeal.Read.val_main_v7 (F := Ideal) (m ((c : Thread nD τ).loc main_arg0))) Facts₀.bitsLt_bf16_f32 := by
  show StableHlo.after hostOps0 (W0 m ρ c) (Proc.devRef .tc main_v21) = _
  unfold Cert.ReferenceIdeal.Read.val_main_v7 Cert.ReferenceIdeal.Read.val_main_v6 Cert.ReferenceIdeal.Read.val_main_v5
    Cert.ReferenceIdeal.Read.val_main_v4 Cert.ReferenceIdeal.Read.val_main_cst_0 Cert.ReferenceIdeal.Read.val_main_v3
    Cert.ReferenceIdeal.Read.val_main_v2 Cert.ReferenceIdeal.Read.val_main_v1 Cert.ReferenceIdeal.Read.val_main_cst
    Cert.ReferenceIdeal.Read.val_main_v0
  after_results_simp
  try rfl

/-- The per-sample exponentials are the reference's own stage of the two float inputs. -/
theorem W1_v20 (c : Dev nD) :
    W1 m ρ c (Proc.devRef .tc main_v20)
      = Cert.ReferenceIdeal.Read.val_main_v20 (F := Ideal) (m ((c : Thread nD τ).loc main_arg0)) (m ((c : Thread nD τ).loc main_arg1)) := by
  show StableHlo.after hostOps0 (W0 m ρ c) (Proc.devRef .tc main_v20) = _
  unfold Cert.ReferenceIdeal.Read.val_main_v20 Cert.ReferenceIdeal.Read.val_main_v19 Cert.ReferenceIdeal.Read.val_main_v18
    Cert.ReferenceIdeal.Read.val_main_cst_4 Cert.ReferenceIdeal.Read.val_main_v17 Cert.ReferenceIdeal.Read.val_main_cst_3
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_cst_2
    Cert.ReferenceIdeal.Read.val_main_v11 Cert.ReferenceIdeal.Read.val_main_v10 Cert.ReferenceIdeal.Read.val_main_v9
    Cert.ReferenceIdeal.Read.val_main_cst_1 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_cst_0 Cert.ReferenceIdeal.Read.val_main_v3
    Cert.ReferenceIdeal.Read.val_main_v2 Cert.ReferenceIdeal.Read.val_main_v1 Cert.ReferenceIdeal.Read.val_main_cst
    Cert.ReferenceIdeal.Read.val_main_v0
  after_results_simp
  try rfl

/-- The reference's result is the same closing stretch of its per-sample exponentials and its per-row sums. -/
theorem ref_closing (x0 x1 : (⟨S4096x512, .f32⟩ : BufTy).Contents (Elt Ideal)) (x2 : (⟨S4096, .i32⟩ : BufTy).Contents (Elt Ideal)) :
    Cert.ReferenceIdeal.Read.val_main_v45 (F := Ideal) x0 x1 x2
      = closing (Cert.ReferenceIdeal.Read.val_main_v20 (F := Ideal) x0 x1) (Cert.ReferenceIdeal.Read.val_main_v39 (F := Ideal) x0 x2) := by
  unfold closing Cert.ReferenceIdeal.Read.val_main_v45 Cert.ReferenceIdeal.Read.val_main_v44 Cert.ReferenceIdeal.Read.val_main_v43
    Cert.ReferenceIdeal.Read.val_main_v42 Cert.ReferenceIdeal.Read.val_main_v41 Cert.ReferenceIdeal.Read.val_main_v40
    Cert.ReferenceIdeal.Read.val_main_cst_7 Cert.ReferenceIdeal.Read.val_main_cst_8
  rfl

end Cert.KernelIdeal.Hand

end
-- ==== Proof.KI.Pieces.lean ====
/-
  The two cases' stores read back as values. At a later column block the body's one store leaves the adding
  payload of the four input blocks and the column it found; at a first column block the store of the cleared column
  comes first, is read back, and the last store leaves the adding payload over the cleared column.
-/
import proofs.«158266_j31018253811874_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A later column block leaves the running column plus the block's masked row sums. -/
theorem outLater_eq (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : ¬firstCol i)
    (x0 : Vec F S512x1 .i32) (x1 : Vec F S1x512 .i32) (x2 : Vec F S512x512 .bf16) (x3 : Vec F S512x512 .bf16) (xo : Vec F S512x1 .f32) :
    outLater c i arg2 harg2 arg3 harg3 arg4 harg4 arg5 harg5 arg6 harg6 hc x0 x1 x2 x3 xo = k0_pay2 i x2 x3 x0 x1 xo := by
  unfold outLater
  rw [View.read_writes_eq_canon _ _ _ (coverLater c i arg2 harg2 arg3 harg3 arg4 harg4 arg5 harg5 arg6 harg6 hc x0 x1 x2 x3 xo)]
  unfold runLater
  dsimp only
  sl_unfold_words
  rw [View.canon_unit_zero (S := S512x1) hz2]
  simp only [View.readAt_eq_ld, harg2.read_unread, harg3.read_unread, harg4.read_unread, harg5.read_unread, harg6.read_unread,
    View.ld_unit_zero (S := S512x1) hz2, View.ld_unit_zero (S := S1x512) hz2, View.ld_unit_zero (S := S512x512) hz2]

/-- A first column block leaves the cleared column plus the block's masked row sums. -/
theorem outFirst_eq (c : Dev nD) (i : grid0.Coords)
    (arg2 : Memref sig .tc .vmem S512x1 .i32) (harg2 : arg2.IsWhole) (arg3 : Memref sig .tc .vmem S1x512 .i32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x1 .f32) (harg6 : arg6.IsWhole) (hc : firstCol i)
    (x0 : Vec F S512x1 .i32) (x1 : Vec F S1x512 .i32) (x2 : Vec F S512x512 .bf16) (x3 : Vec F S512x512 .bf16) :
    outFirst c i arg2 harg2 arg3 harg3 arg4 harg4 arg5 harg5 arg6 harg6 hc x0 x1 x2 x3 = k0_pay2 i x2 x3 x0 x1 (k0_pay1 (F := F)) := by
  unfold outFirst
  rw [View.read_writes_eq_canon _ _ _ (coverFirst c i arg2 harg2 arg3 harg3 arg4 harg4 arg5 harg5 arg6 harg6 hc x0 x1 x2 x3)]
  unfold runFirst
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread,
    View.ld_unit_zero (S := S512x1) hz2, View.ld_unit_zero (S := S1x512) hz2, View.ld_unit_zero (S := S512x512) hz2]

end Cert.KernelIdeal.Hand

end
-- ==== Proof.KI.Payload.lean ====
/-
  The kernel body's two payloads read at an index, over the extended reals.

  The first payload is the zero column the running output starts from. The second takes a 512×512 block of rows
  `x2`, a 512×512 block of rows `x3`, the labels of the first block's rows as a column `x0`, the labels of the second
  block's rows as a row `x1`, and the running output column `xo`. At row `p` it adds to `xo` the sum over the columns
  `q` of `exp (2 · ⟨x2_p, x3_q⟩)` for those `q` whose label equals that of `p` and whose position in the whole array,
  `512 · i₁ + q`, differs from that of `p`, `512 · i₀ + p`; the other columns contribute 0.
-/
import proofs.«158266_j31018253811874_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine

noncomputable section

open scoped BigOperators

namespace Cert.KernelIdeal.Payload

open Cert.KernelIdeal Cert.KernelIdeal.Gen Idealize.ShloMosaic Idealize.ShloMosaic.ValueIdx
open Facts₀ Facts

/-- The first payload is the splat of the binary32 pattern of `+0.0`, which denotes `0`. -/
theorem pay1_apply (j : S512x1.Idx) : k0_pay1 (F := Ideal) j = 0 := by
  unfold k0_pay1
  show Ideal.ofBits .f32 0x00000000#32 = 0
  exact Ideal.ofBits_zero_f32

/-- The binary32 pattern `0x40000000` (sign 0, exponent 128, significand 0) denotes `2^(128 - 127) = 2`. -/
theorem ofBits_two : Ideal.ofBits .f32 0x40000000#32 = ((2 : ℝ) : EReal) := by
  simp [Ideal.ofBits, Ideal.ieee, -EReal.coe_mul]; norm_num

/-! ## The product of the row block with the transposed column block -/

/-- The left operand's index at output `(r, c)` and contraction coordinate `k` has row `r` … -/
theorem lhsIdx_0 (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

/-- … and column `k`; -/
theorem lhsIdx_1 (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c

/-- the right operand's has row `k` … -/
theorem rhsIdx_0 (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c

/-- … and column `c`. -/
theorem rhsIdx_1 (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The matrix product of `x2` with the transpose of `x3`, accumulated into zero, is at `(p, q)` the inner product of
    row `p` of `x2` with row `q` of `x3`: the transpose read at `(k, q)` is `x3` at `(q, k)`, and a cast between equal
    shapes changes nothing. -/
theorem matmul_at (x2 x3 : FVec Ideal S512x512 .bf16) (hc : S512x512.ShapeCasts S512x512)
    (ht : S512x512.Transposes [1, 0] S512x512) (p q : Fin 512) :
    matmul dot_S512x512_S512x512_S512x512_1_0_0_1_n_n none (shapeCast S512x512 x2 hc)
        (transpose S512x512 [1, 0] (shapeCast S512x512 x3 hc) ht) (constant S512x512 .f32 0x00000000#32) (ix2 p q)
      = ∑ k : Fin 512, x2 (ix2 p k) * x3 (ix2 q k) := by
  rw [shapeCast_self, shapeCast_self]
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun a => Fin.ext (by
      match a with
      | ⟨0, _⟩ => exact lhsIdx_0 _ _
      | ⟨1, _⟩ => exact (lhsIdx_1 _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun a => Fin.ext (by
      match a with
      | ⟨0, _⟩ => exact (rhsIdx_0 _ _).trans hk
      | ⟨1, _⟩ => exact rhsIdx_1 _ _)
  rw [el, er]
  exact congrArg (x2 (ix2 p k) * ·) (transpose_apply [1, 0] x3 ht (ix2 k q) (ix2 q k) (fun b => by
    match b with
    | ⟨0, _⟩ => rfl
    | ⟨1, _⟩ => rfl))

/-! ## The mask bit -/

/-- The exclusive or of a one-bit word with `1` is `1` exactly when the word is not. -/
theorem xori_one_eq_one {c : BitVec 1} : IntOp.xori c 1#1 = 1#1 ↔ ¬c = 1#1 := by revert c; decide

/-- For block numbers `a, b < 8` and positions `p, q < 512` the 32-bit words `a · 512 + p` and `b · 512 + q` are equal
    exactly when the numbers are: both are below `2^32`, so no product or sum wraps. -/
theorem word_eq_iff (a b p q : Nat) (ha : a < 8) (hb : b < 8) (hp : p < 512) (hq : q < 512) :
    IntOp.addi (Scalar.muli (BitVec.ofNat 32 a) 512#32) (BitVec.ofNat 32 p)
        = IntOp.addi (Scalar.muli (BitVec.ofNat 32 b) 512#32) (BitVec.ofNat 32 q)
      ↔ 512 * a + p = 512 * b + q := by
  unfold IntOp.addi Scalar.muli IntOp.muli
  constructor
  · intro h
    have h2 := congrArg BitVec.toNat h
    simp only [BitVec.toNat_add, BitVec.toNat_mul, BitVec.toNat_ofNat] at h2
    omega
  · intro h
    apply BitVec.eq_of_toNat_eq
    simp only [BitVec.toNat_add, BitVec.toNat_mul, BitVec.toNat_ofNat]
    omega

/-- The mask bit at `(p, q)` is `1` exactly when the label of row `p` (the column of labels broadcast along the
    rows) equals the label of column `q` (the row of labels broadcast along the columns) and the global positions
    `512 · i₀ + p` and `512 · i₁ + q` differ. -/
theorem mask_bit (i : grid0.Coords) (x0 : IVec S512x1 32) (x1 : IVec S1x512 32)
    (hc0 : S512x1.ShapeCasts S512x1) (hc1 : S1x512.ShapeCasts S1x512)
    (hb0 : S512x1.Broadcasts S512x512) (hb1 : S1x512.Broadcasts S512x512)
    (hi0 : S512x512.Iotas .tc 32 [0]) (hi1 : S512x512.Iotas .tc 32 [1]) (p q : Fin 512) :
    andi (cmpi .eq (broadcastTo S512x512 (shapeCast S512x1 x0 hc0) hb0) (broadcastTo S512x512 (shapeCast S1x512 x1 hc1) hb1))
        (xori (cmpi .eq (addi (broadcast S512x512 (Scalar.muli (BitVec.ofNat 32 (i 0).val) 512#32)) (iota .tc S512x512 32 [0] hi0))
                        (addi (broadcast S512x512 (Scalar.muli (BitVec.ofNat 32 (i 1).val) 512#32)) (iota .tc S512x512 32 [1] hi1)))
              (constantI S512x512 1 1#1)) (ix2 p q) = 1#1
      ↔ (x0 (ix2 p 0) = x1 (ix2 0 q) ∧ ¬(512 * (i 0).val + p.val = 512 * (i 1).val + q.val)) := by
  rw [shapeCast_self, shapeCast_self]
  have e0 : broadcastTo S512x512 x0 hb0 (ix2 p q) = x0 (ix2 p 0) :=
    broadcastTo_apply x0 hb0 (ix2 p q) (ix2 p 0) (fun a => by
      match a with
      | ⟨0, _⟩ => rfl
      | ⟨1, _⟩ => rfl)
  have e1 : broadcastTo S512x512 x1 hb1 (ix2 p q) = x1 (ix2 0 q) :=
    broadcastTo_apply x1 hb1 (ix2 p q) (ix2 0 q) (fun a => by
      match a with
      | ⟨0, _⟩ => rfl
      | ⟨1, _⟩ => rfl)
  have j0 : iota .tc S512x512 32 [0] hi0 (ix2 p q) = BitVec.ofNat 32 p.val :=
    iota_single_apply .tc S512x512 32 0 hi0 (ix2 p q)
  have j1 : iota .tc S512x512 32 [1] hi1 (ix2 p q) = BitVec.ofNat 32 q.val :=
    iota_single_apply .tc S512x512 32 1 hi1 (ix2 p q)
  show IntOp.andi (IntOp.cmpi .eq (broadcastTo S512x512 x0 hb0 (ix2 p q)) (broadcastTo S512x512 x1 hb1 (ix2 p q)))
      (IntOp.xori (IntOp.cmpi .eq
        (IntOp.addi (Scalar.muli (BitVec.ofNat 32 (i 0).val) 512#32) (iota .tc S512x512 32 [0] hi0 (ix2 p q)))
        (IntOp.addi (Scalar.muli (BitVec.ofNat 32 (i 1).val) 512#32) (iota .tc S512x512 32 [1] hi1 (ix2 p q)))) 1#1) = 1#1 ↔ _
  rw [e0, e1, j0, j1, IntOp.andi_eq_one, IntOp.cmpi_eq, xori_one_eq_one, IntOp.cmpi_eq,
    word_eq_iff (i 0).val (i 1).val p.val q.val (i 0).isLt (i 1).isLt p.isLt q.isLt]

/-! ## The row sum and its column form -/

/-- A vector of 512 entries viewed as a 512×1 column reads, at `(p, 0)`, its entry `p`: both have row-major
    position `p`. -/
theorem column_at {α : Type} (v : S512.Idx → α) (h : S512.ShapeCasts S512x1) (p : Fin 512) :
    shapeCast S512x1 v h (ix2 p 0) = v (ix1 p) := by
  refine shapeCast_apply v h (ix2 p 0) (ix1 p) ?_
  rw [Shape.rowMajor_val_one, Shape.rowMajor_val_two]
  show p.val = p.val * 1 + 0
  omega

/-- The sum along the second axis of a 512×512 array, started from the zero word, is at `p` the sum over `q` of the
    array at `(p, q)`. -/
theorem rowSum_at (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ q : Fin 512, src (ix2 p q) := by
  refine (Ideal.multiReduction_add_single src 0x00000000#32 h hφ hacc (ix1 p)).trans ?_
  refine Finset.sum_congr rfl fun q _ => ?_
  exact congrArg src (funext fun a => Fin.ext (by
    match a with
    | ⟨0, _⟩ => rfl
    | ⟨1, _⟩ => rfl))

/-! ## The second payload -/

/-- The second payload at row `p`: the running output there plus the sum over the columns `q` of the selected
    summand — `exp` of twice the inner product where the mask bit is `1`, the zero constant where it is `0`. -/
theorem pay2_apply (i : grid0.Coords) (x2 x3 : Vec Ideal S512x512 .bf16) (x0 : Vec Ideal S512x1 .i32)
    (x1 : Vec Ideal S1x512 .i32) (xo : Vec Ideal S512x1 .f32) (p : Fin 512) :
    k0_pay2 (F := Ideal) i x2 x3 x0 x1 xo (ix2 p 0)
      = xo (ix2 p 0) + ∑ q : Fin 512,
          (if x0 (ix2 p 0) = x1 (ix2 0 q) ∧ ¬(512 * (i 0).val + p.val = 512 * (i 1).val + q.val)
            then Ideal.exp ((∑ k : Fin 512, x2 (ix2 p k) * x3 (ix2 q k)) * ((2 : ℝ) : EReal)) else 0) := by
  unfold k0_pay2
  refine (addf_apply _ _ (ix2 p 0)).trans ?_
  refine congrArg₂ (· + ·) (congrFun (shapeCast_self xo _) (ix2 p 0)) ?_
  refine (column_at _ _ p).trans ?_
  refine (rowSum_at _ _ _ _ p).trans ?_
  refine Finset.sum_congr rfl fun q _ => ?_
  refine (select_apply _ _ _ (ix2 p q)).trans ?_
  by_cases h : x0 (ix2 p 0) = x1 (ix2 0 q) ∧ ¬(512 * (i 0).val + p.val = 512 * (i 1).val + q.val)
  · rw [if_pos h, (mask_bit i x0 x1 _ _ _ _ _ _ p q).mpr h, select_one]
    show Ideal.exp (matmul (F := Ideal) dot_S512x512_S512x512_S512x512_1_0_0_1_n_n none (shapeCast S512x512 x2 _)
      (transpose S512x512 [1, 0] (shapeCast S512x512 x3 _) _) (constant S512x512 .f32 0x00000000#32) (ix2 p q)
        * Ideal.ofBits .f32 0x40000000#32) = _
    rw [matmul_at, ofBits_two]
  · rw [if_neg h, eq_zero_of_ne_one (fun hb => h ((mask_bit i x0 x1 _ _ _ _ _ _ p q).mp hb)), select_zero]
    exact Ideal.ofBits_zero_f32

end Cert.KernelIdeal.Payload

end
-- ==== Proof.KI.Value.lean ====
/-
  What the result column holds after the pairwise kernel has run, entry by entry, over the extended reals.

  The grid point at position `t` is row block `t / 8`, column block `t % 8`. Its four input blocks are rows
  `512 · (t / 8) + p` of the column of labels and of the matrix, and rows `512 · (t % 8) + q` of the row of labels and of
  the same matrix. The body's payload adds to the running column, at row `p`, the sum over `q` of the pair term of
  rows `512 · (t / 8) + p` and `512 · (t % 8) + q`: `exp` of twice their inner product when the two labels agree and
  the two rows differ, `0` otherwise. The running column is cleared at the first column block of a row block and
  written back after the eighth, so what is written back at row `p` of row block `r` is the sum over the eight column
  blocks `s` and the 512 positions `q` of the pair term of rows `512 · r + p` and `512 · s + q`, which is the sum over
  all 4096 rows `m`. The eight write-backs tile the result column.
-/
import proofs.«158266_j31018253811874_1_alg».proof.Proof.KI.Pieces
import proofs.«158266_j31018253811874_1_alg».proof.Proof.KI.Payload
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

-- The core's buffers when the region is entered, at the extended reals.
variable (V : (c : Dev nD) → (b : Ref sig .tc) → Buf (Elt Ideal) ((c : Thread nD τ).loc b))

/-! ## The grid's arithmetic -/

/-- The grid has 64 points. -/
theorem N_lt (t : Fin cfg0.N) : t.val < 64 := lt_of_lt_of_eq t.isLt (show cfg0.N = 64 from N_0)

/-- Row `p` of point `t`'s row block, as a row of the whole array: `512 · (t / 8) + p`. -/
def rowOf (t : Fin cfg0.N) (p : Fin 512) : Fin 4096 :=
  ⟨512 * (t.val / 8) + p.val, by have := N_lt t; have := p.isLt; omega⟩
/-- Row `q` of point `t`'s column block, as a row of the whole array: `512 · (t % 8) + q`. -/
def colOf (t : Fin cfg0.N) (q : Fin 512) : Fin 4096 :=
  ⟨512 * (t.val % 8) + q.val, by have := N_lt t; have := q.isLt; omega⟩

/-- The coordinates of the point at position `t` are `(t / 8, t % 8)`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block index of each window at position `t`: the column of labels, the first reading of the matrix and the
    result move with the row block, the row of labels and the second reading of the matrix with the column block. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-! ## The input blocks, read off their arrays

An element of a block sits in its array, on each axis, at the block index times the block's extent plus its own
coordinate. -/

/-- The block of the column of labels at `(p, 0)` is the column at row `512 · (t / 8) + p`. -/
theorem iblk0_apply (c : Dev nD) (t : Fin cfg0.N) (p : Fin 512) :
    (iblk V c 0 t : Vec Ideal S512x1 .i32) (ix2 p 0) = V c main_v22 (ix2 (rowOf t p) 0) := by
  unfold iblk
  rw [View.read_apply]
  show V c main_v22 _ = V c main_v22 _
  congr 1
  funext a
  apply Fin.ext
  match a with
  | ⟨0, _⟩ => show win0_0.index t 0 * 512 + 1 * p.val = 512 * (t.val / 8) + p.val; rw [(idx0 t).1]; omega
  | ⟨1, _⟩ => show win0_0.index t 1 * 1 + 1 * 0 = 0; rw [(idx0 t).2]

/-- The block of the row of labels at `(0, q)` is the row at column `512 · (t % 8) + q`. -/
theorem iblk1_apply (c : Dev nD) (t : Fin cfg0.N) (q : Fin 512) :
    (iblk V c 1 t : Vec Ideal S1x512 .i32) (ix2 0 q) = V c main_v23 (ix2 0 (colOf t q)) := by
  unfold iblk
  rw [View.read_apply]
  show V c main_v23 _ = V c main_v23 _
  congr 1
  funext a
  apply Fin.ext
  match a with
  | ⟨0, _⟩ => show win0_1.index t 0 * 1 + 1 * 0 = 0; rw [(idx1 t).1]
  | ⟨1, _⟩ => show win0_1.index t 1 * 512 + 1 * q.val = 512 * (t.val % 8) + q.val; rw [(idx1 t).2]; omega

/-- The row block of the matrix at `(p, k)` is the matrix at row `512 · (t / 8) + p`. -/
theorem iblk2_apply (c : Dev nD) (t : Fin cfg0.N) (p k : Fin 512) :
    (iblk V c 2 t : Vec Ideal S512x512 .bf16) (ix2 p k) = V c main_v21 (ix2 (rowOf t p) k) := by
  unfold iblk
  rw [View.read_apply]
  show V c main_v21 _ = V c main_v21 _
  congr 1
  funext a
  apply Fin.ext
  match a with
  | ⟨0, _⟩ => show win0_2.index t 0 * 512 + 1 * p.val = 512 * (t.val / 8) + p.val; rw [(idx2 t).1]; omega
  | ⟨1, _⟩ => show win0_2.index t 1 * 512 + 1 * k.val = k.val; rw [(idx2 t).2]; omega

/-- The column block of the matrix at `(q, k)` is the matrix at row `512 · (t % 8) + q`. -/
theorem iblk3_apply (c : Dev nD) (t : Fin cfg0.N) (q k : Fin 512) :
    (iblk V c 3 t : Vec Ideal S512x512 .bf16) (ix2 q k) = V c main_v21 (ix2 (colOf t q) k) := by
  unfold iblk
  rw [View.read_apply]
  show V c main_v21 _ = V c main_v21 _
  congr 1
  funext a
  apply Fin.ext
  match a with
  | ⟨0, _⟩ => show win0_3.index t 0 * 512 + 1 * q.val = 512 * (t.val % 8) + q.val; rw [(idx3 t).1]; omega
  | ⟨1, _⟩ => show win0_3.index t 1 * 512 + 1 * k.val = k.val; rw [(idx3 t).2]; omega

/-! ## Eight blocks of 512 are 4096 -/

/-- A sum over `s < 8` and `q < 512` of a function of `512 · s + q` is the sum over `m < 4096`: every `m` is
    `512 · s + q` for exactly one pair. -/
theorem sum_blocks {β : Type*} [AddCommMonoid β] (f : ℕ → β) :
    ∑ s ∈ Finset.range 8, ∑ q : Fin 512, f (512 * s + q.val) = ∑ m : Fin 4096, f m.val := by
  rw [← Fin.sum_univ_eq_sum_range (fun s => ∑ q : Fin 512, f (512 * s + q.val)) 8,
    ← Equiv.sum_comp (finProdFinEquiv (m := 8) (n := 512)) (fun m : Fin 4096 => f m.val), Fintype.sum_prod_type]
  refine Finset.sum_congr rfl fun s _ => Finset.sum_congr rfl fun q _ => ?_
  refine congrArg f ?_
  show 512 * s.val + q.val = q.val + 512 * s.val
  omega

/-! ## The pair term and one block's contribution -/

/-- The labels as a column, the labels as a row and the matrix of rows, as the region finds them. -/
abbrev labCol (c : Dev nD) : Vec Ideal S4096x1 .i32 := V c main_v22
abbrev labRow (c : Dev nD) : Vec Ideal S1x4096 .i32 := V c main_v23
abbrev rowsOf (c : Dev nD) : Vec Ideal S4096x512 .bf16 := V c main_v21

/-- What row `b` contributes to row `a`: `exp (2 · ⟨z_a, z_b⟩)` when the labels agree and `a ≠ b`, `0` otherwise. -/
def pairTerm (c : Dev nD) (a b : Fin 4096) : EReal :=
  if labCol V c (ix2 a 0) = labRow V c (ix2 0 b) ∧ a ≠ b
    then Ideal.exp ((∑ k : Fin 512, rowsOf V c (ix2 a k) * rowsOf V c (ix2 b k)) * ((2 : ℝ) : EReal)) else 0

/-- The same over natural numbers, `0` past the array, so that sums over positions need no bounds. -/
def pairNat (c : Dev nD) (a b : ℕ) : EReal :=
  if h : a < 4096 ∧ b < 4096 then pairTerm V c ⟨a, h.1⟩ ⟨b, h.2⟩ else 0

theorem pairNat_fin (c : Dev nD) (a b : Fin 4096) : pairNat V c a.val b.val = pairTerm V c a b := by
  unfold pairNat
  rw [dif_pos ⟨a.isLt, b.isLt⟩]

/-- What the point at position `n` adds at row `y` of its block: the pair terms of that row with the 512 rows of
    the point's column block. -/
def blockSum (c : Dev nD) (n : ℕ) (y : S512x1.Idx) : EReal :=
  ∑ q : Fin 512, pairNat V c (512 * (n / 8) + (y 0).val) (512 * (n % 8) + q.val)

/-- The body's adding payload on the blocks of point `t`: the column it is given plus the point's contribution. -/
theorem step_apply (c : Dev nD) (t : Fin cfg0.N) (xo : Vec Ideal S512x1 .f32) (y : S512x1.Idx) :
    k0_pay2 (F := Ideal) (grid0.coords t) (iblk V c 2 t) (iblk V c 3 t) (iblk V c 0 t) (iblk V c 1 t) xo y
      = xo y + blockSum V c t.val y := by
  obtain ⟨p, rfl⟩ : ∃ p : Fin 512, y = ix2 p 0 :=
    ⟨y 0, (eq_ix2 y).trans (congrArg (ix2 (y 0)) (Subsingleton.elim (α := Fin 1) (y 1) 0))⟩
  refine (Payload.pay2_apply (grid0.coords t) (iblk V c 2 t) (iblk V c 3 t) (iblk V c 0 t) (iblk V c 1 t) xo p).trans ?_
  refine congrArg (xo (ix2 p 0) + ·) ?_
  unfold blockSum
  refine Finset.sum_congr rfl fun q _ => ?_
  have hr : 512 * (t.val / 8) + p.val < 4096 := (rowOf t p).isLt
  have hc : 512 * (t.val % 8) + q.val < 4096 := (colOf t q).isLt
  show _ = pairNat V c (512 * (t.val / 8) + p.val) (512 * (t.val % 8) + q.val)
  unfold pairNat
  rw [dif_pos ⟨hr, hc⟩]
  unfold pairTerm
  rw [iblk0_apply, iblk1_apply, (coords_val t).1, (coords_val t).2]
  simp only [iblk2_apply, iblk3_apply]
  refine if_congr (and_congr Iff.rfl (not_congr ?_)) rfl rfl
  constructor
  · intro h; exact Fin.ext h
  · intro h; exact congrArg Fin.val h

/-! ## The running column at the point that writes it back -/

/-- The clearing case's value and the adding case's step, as values of the payload on the point's blocks. -/
def resetAt (c : Dev nD) (n : ℕ) (h : n < cfg0.N) : Vec Ideal S512x1 .f32 :=
  k0_pay2 (F := Ideal) (grid0.coords ⟨n, h⟩) (iblk V c 2 ⟨n, h⟩) (iblk V c 3 ⟨n, h⟩) (iblk V c 0 ⟨n, h⟩) (iblk V c 1 ⟨n, h⟩)
    (k0_pay1 (F := Ideal))
def stepAt (c : Dev nD) (n : ℕ) (h : n < cfg0.N) (acc : Vec Ideal S512x1 .f32) : Vec Ideal S512x1 .f32 :=
  k0_pay2 (F := Ideal) (grid0.coords ⟨n, h⟩) (iblk V c 2 ⟨n, h⟩) (iblk V c 3 ⟨n, h⟩) (iblk V c 0 ⟨n, h⟩) (iblk V c 1 ⟨n, h⟩) acc

/-- At a first column block the running column is the clearing case's value … -/
theorem colAt_reset (c : Dev nD) (n : ℕ) (h : n < cfg0.N) (h0 : n % 8 = 0) : colAt V c n h = resetAt V c n h :=
  (colAt_first V c ⟨n, h⟩ h0).trans (outFirst_eq c _ _ _ _ _ _ _ _ _ _ _ _ _ _ _ _)

/-- … and at a later one the step applied to what the point before left. -/
theorem colAt_step (c : Dev nD) (n : ℕ) (h : n + 1 < cfg0.N) (hne : ¬(n + 1) % 8 = 0) :
    colAt V c (n + 1) h = stepAt V c (n + 1) h (colAt V c n (Nat.lt_of_succ_lt h)) :=
  (colAt_later V c ⟨n + 1, h⟩ hne).trans (outLater_eq c _ _ _ _ _ _ _ _ _ _ _ _ _ _ _ _ _)

/-- So after the eighth column block of a row block the running column is the sum of the eight points'
    contributions: the fold from the cleared column `0` adds one contribution per point. -/
theorem colAt_flush (c : Dev nD) (t : Fin cfg0.N) (h7 : t.val % 8 = 7) (y : S512x1.Idx) :
    colAt V c t.val t.isLt y = ∑ s ∈ Finset.range 8, blockSum V c (8 * (t.val / 8) + s) y := by
  have h' : 8 * (t.val / 8) + t.val % 8 < cfg0.N := by rw [Nat.div_add_mod]; exact t.isLt
  have e := Pipeline.eq_accAt_of_mod (fun n h => colAt V c n h) 8 (resetAt V c) (stepAt V c)
    (colAt_reset V c) (colAt_step V c) (by decide) t.val t.isLt h'
  have key := Pipeline.accAt_add_apply (resetAt V c) (stepAt V c) (fun _ => (0 : EReal)) (blockSum V c) (8 * (t.val / 8)) 7
    (fun h i => (step_apply V c ⟨8 * (t.val / 8), h⟩ (k0_pay1 (F := Ideal)) i).trans
      (congrArg (· + blockSum V c (8 * (t.val / 8)) i) (Payload.pay1_apply i)))
    (fun n h acc i _ _ => step_apply V c ⟨n, h⟩ acc i)
    (t.val % 8) (by omega) h' y
  refine (congrFun e y).trans (key.trans ?_)
  rw [h7, zero_add]

/-- Row `n`'s sum of the pair terms with all 4096 rows. -/
def total (c : Dev nD) (n : Fin 4096) : EReal := ∑ m : Fin 4096, pairTerm V c n m

/-- The running column written back at row `p` of row block `t / 8` is the total of row `512 · (t / 8) + p`: the eight
    column blocks' 512 rows each are the 4096 rows. -/
theorem colAt_total (c : Dev nD) (t : Fin cfg0.N) (h7 : t.val % 8 = 7) (p : Fin 512) :
    colAt V c t.val t.isLt (ix2 p 0) = total V c (rowOf t p) := by
  rw [colAt_flush V c t h7 (ix2 p 0)]
  unfold total
  have e : ∀ m : Fin 4096, pairTerm V c (rowOf t p) m = pairNat V c (512 * (t.val / 8) + p.val) m.val :=
    fun m => (pairNat_fin V c (rowOf t p) m).symm
  simp only [e]
  rw [← sum_blocks (fun m => pairNat V c (512 * (t.val / 8) + p.val) m)]
  refine Finset.sum_congr rfl fun s hs => ?_
  have hs' : s < 8 := Finset.mem_range.mp hs
  have e1 : (8 * (t.val / 8) + s) / 8 = t.val / 8 := by omega
  have e2 : (8 * (t.val / 8) + s) % 8 = s := by omega
  unfold blockSum
  rw [e1, e2]

/-! ## From the blocks written back to the result column -/

/-- The whole result column: at row `n` the total of row `n`. -/
def resultCol (c : Dev nD) : Vec Ideal S4096x1 .f32 := fun i => total V c (i 0)

/-- What a point that writes back writes is its block of the result column. -/
theorem flushed_eq (c : Dev nD) (t : Fin cfg0.N) (hf : (cfg0.win 4).flush t = true) :
    (dat (F := Ideal) V c).flushed 4 t = ((cfg0.win 4).blk t).view.read (Elt Ideal) (resultCol V c) := by
  have h7 : t.val % 8 = 7 := (flush0_4 t).mp hf
  show (cfg0.win 4).cut (grid0.coords t) ((dat (F := Ideal) V c).after 4 t) = _
  rw [after_4]
  funext y
  obtain ⟨p, rfl⟩ : ∃ p : Fin 512, y = ix2 p 0 :=
    ⟨y 0, (eq_ix2 y).trans (congrArg (ix2 (y 0)) (Subsingleton.elim (α := Fin 1) (y 1) 0))⟩
  rw [View.read_apply]
  show colAt V c t.val t.isLt (ix2 p 0) = resultCol V c (((cfg0.win 4).blk t).view.emb (ix2 p 0))
  rw [colAt_total V c t h7 p]
  unfold resultCol
  refine congrArg (total V c) (Fin.ext ?_)
  show 512 * (t.val / 8) + p.val = win0_4.index t 0 * 512 + 1 * p.val
  rw [(idx4 t).1]; omega

/-- An index of the result column is in point `t`'s block iff each coordinate is in the block's range on its axis. -/
theorem mem_blk4 (t : Fin cfg0.N) (i : S4096x1.Idx) :
    i ∈ ((cfg0.win 4).blk t).view.set ↔
      ∀ a : Fin 2, win0_4.index t a * S512x1.size a ≤ (i a).val ∧ (i a).val < win0_4.index t a * S512x1.size a + S512x1.size a := by
  show i ∈ ((View.whole main_v24).slice (win0_4.rect t)).set ↔ _
  rw [View.set_slice_whole, Rect.mem_set_unit]
  exact Iff.rfl

/-- Row `i` of the result column is under the block written back at the last point of row block `i / 512`. -/
theorem cover (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 64 := N_0
  have ht : 8 * ((i 0).val / 512) + 7 < cfg0.N := by rw [hN]; omega
  refine ⟨⟨8 * ((i 0).val / 512) + 7, ht⟩, (flush0_4 _).mpr (by show (8 * ((i 0).val / 512) + 7) % 8 = 7; omega), ?_⟩
  rw [mem_blk4]
  obtain ⟨e0, e1⟩ := idx4 ⟨8 * ((i 0).val / 512) + 7, ht⟩
  have e0' : win0_4.index ⟨8 * ((i 0).val / 512) + 7, ht⟩ (0 : Fin 2) = (8 * ((i 0).val / 512) + 7) / 8 := e0
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [e0']; omega
  | ⟨1, _⟩ =>
    show win0_4.index ⟨8 * ((i 0).val / 512) + 7, ht⟩ (1 : Fin 2) * 1 ≤ (i 1).val
      ∧ (i 1).val < win0_4.index ⟨8 * ((i 0).val / 512) + 7, ht⟩ (1 : Fin 2) * 1 + 1
    rw [e1]; omega

/-- The result array after the run is the result column. -/
theorem final_eq (c : Dev nD) : (dat (F := Ideal) V c).arrAt 4 cfg0.N = resultCol V c :=
  (dat (F := Ideal) V c).arrAt_eq_of_cover 4 (resultCol V c) (flushed_eq V c) cover

/-- Entry by entry: row `n` of the result is the sum over all rows `m` with the label of `n`, other than `n`, of
    `exp (2 · ⟨z_n, z_m⟩)`. -/
theorem final_apply (c : Dev nD) (n : Fin 4096) :
    (dat (F := Ideal) V c).arrAt 4 cfg0.N (ix2 n 0)
      = ∑ m : Fin 4096,
          (if labCol V c (ix2 n 0) = labRow V c (ix2 0 m) ∧ n ≠ m
            then Ideal.exp ((∑ k : Fin 512, rowsOf V c (ix2 n k) * rowsOf V c (ix2 m k)) * ((2 : ℝ) : EReal)) else 0) :=
  congrFun (final_eq V c) (ix2 n 0)

end Cert.KernelIdeal.Hand

end
-- ==== Proof.Spec.lean ====
/-
  The quantity on which the two programs differ in form, stated once over the extended reals.

  Both programs normalise the rows of the first input, take for each sample the exponential of twice its inner
  product with its adversarial twin, and close with the same logarithm, mean and sign. Between those shared stretches
  each computes, for every row `n`, the sum over the OTHER rows `m` that carry the same label of
  `exp (2 · ⟨z_n, z_m⟩)`. The kernel reaches it tile by tile — a 512×512 block of inner products scaled by 2,
  masked by a select, summed along the row and added to a running column —, the reference in one piece — all
  4096×4096 inner products divided by 1/2, multiplied by the mask as a 0/1 number, summed along the row. This
  module names the common value; nothing here mentions either program.
-/
import Idealize.ShloMosaic.PureOps.Ideal
import Idealize.ShloMosaic.Lib.ValueIdx

noncomputable section

open scoped BigOperators

namespace Cert.Intra

open Idealize.ShloMosaic Idealize.ShloMosaic.ValueIdx

/-- The inner product of rows `n` and `m` of a 4096×512 matrix of extended reals. -/
def rowDot (z : (⟨2, ![4096, 512]⟩ : Shape).Idx → EReal) (n m : Fin 4096) : EReal :=
  ∑ k : Fin 512, z (ix2 n k) * z (ix2 m k)

/-- What row `m` contributes to row `n`: `exp (2 · ⟨z_n, z_m⟩)` when the two rows are distinct and carry the same
    label, nothing otherwise. -/
def pairTerm (z : (⟨2, ![4096, 512]⟩ : Shape).Idx → EReal) (lab : (⟨1, ![4096]⟩ : Shape).Idx → BitVec 32) (n m : Fin 4096) : EReal :=
  if lab (ix1 n) = lab (ix1 m) ∧ n ≠ m then Ideal.exp (rowDot z n m * ((2 : ℝ) : EReal)) else 0

/-- Row `n`'s sum of the contributions of all rows. -/
def intra (z : (⟨2, ![4096, 512]⟩ : Shape).Idx → EReal) (lab : (⟨1, ![4096]⟩ : Shape).Idx → BitVec 32) (n : Fin 4096) : EReal :=
  ∑ m : Fin 4096, pairTerm z lab n m

end Cert.Intra

end
-- ==== Proof.RefIntra.lean ====
/-
  The reference's masked row sum is the common value `Cert.Intra.intra`.

  With `z` the 4096×512 matrix whose rows the reference pairs (kept opaque here), the reference forms all 4096×4096 inner products `⟨z_n, z_m⟩`, divides
  each by the constant 1/2, exponentiates, multiplies by a 0/1 number and sums along the row. The 0/1 number is the
  conversion of a one-bit word that is `1` exactly when the labels of the two rows agree and the row and column
  positions differ. Dividing by 1/2 is multiplying by 2 on every extended real, and a product with the 0/1 number
  either keeps the exponential or gives 0, so each summand is `Cert.Intra.pairTerm` and the row sum, started from 0,
  is `Cert.Intra.intra`. No finiteness of any value is needed.
-/
import proofs.«158266_j31018253811874_1_alg».proof.Proof.Gen.ReferenceIdeal.Read
import proofs.«158266_j31018253811874_1_alg».proof.Proof.Spec
import Idealize.ShloMosaic.Lib.ValueIdx
import Idealize.ShloMosaic.Lib.Affine
import Idealize.ShloMosaic.PureOps.Ideal.Laws

noncomputable section

open scoped BigOperators

namespace Cert.RefIntra

open Cert.ReferenceIdeal Cert.ReferenceIdeal.Gen Cert.ReferenceIdeal.Read Idealize.ShloMosaic Idealize.ShloMosaic.ValueIdx

/-- The binary32 pattern `0x3F000000` (sign 0, exponent 126, significand 0) denotes `2^(126 - 127) = 1/2`. -/
theorem ofBits_half : Ideal.ofBits .f32 0x3F000000#32 = ((0.5 : ℝ) : EReal) := by
  simp [Ideal.ofBits, Ideal.ieee, -EReal.coe_mul]; norm_num

/-- Dividing by 1/2 is multiplying by 2, on every extended real: the divisor is a nonzero real, so the quotient is
    the product with its reciprocal, and `1 / (1/2) = 2`. -/
theorem div_half (x : EReal) : Ideal.div x (Ideal.ofBits .f32 0x3F000000#32) = x * ((2 : ℝ) : EReal) := by
  rw [ofBits_half, Ideal.div_coe (by norm_num)]; norm_num

/-- The 32-bit words of two positions below 4096, the first with 0 added, are equal exactly when the positions
    are: both are below `2^32`, where the word determines the number. -/
theorem iota_eq_iff (n m : Fin 4096) :
    IntOp.addi (BitVec.ofNat 32 n.val) 0#32 = BitVec.ofNat 32 m.val ↔ n = m := by
  unfold IntOp.addi
  rw [BitVec.add_zero]
  constructor
  · intro h
    have h2 := congrArg BitVec.toNat h
    simp only [BitVec.toNat_ofNat] at h2
    apply Fin.ext
    have := n.isLt; have := m.isLt
    omega
  · intro h; rw [h]

/-- The mask bit at row `n`, column `m` is `1` exactly when the two rows carry the same label and `n ≠ m`. The
    label comparison reads the column's label on the left and the row's on the right, hence the symmetry step. -/
theorem mask_bit (x2 : (⟨S4096, .i32⟩ : BufTy).Contents (Elt Ideal)) (n m : Fin 4096) :
    val_main_v35 (F := Ideal) x2 (ix2 n m) = 1#1 ↔ (x2 (ix1 n) = x2 (ix1 m) ∧ n ≠ m) := by
  rw [val_main_v35_apply, IntOp.andi_eq_one, val_main_v28_apply, IntOp.cmpi_eq, val_main_v34_apply, IntOp.not_eq_one,
    val_main_v33_apply, IntOp.cmpi_eq, val_main_v32_apply, val_main_v29_apply, val_main_v30_apply, val_main_v31_apply,
    val_main_c_apply, val_main_v26_apply, val_main_v27_apply, val_main_v24_apply, val_main_v25_apply]
  have e1 : idx_main_v24 (idx_main_v26 (ix2 n m)) = ix1 m :=
    funext fun a => Fin.ext (by match a with | ⟨0, _⟩ => rfl)
  have e2 : idx_main_v25 (idx_main_v27 (ix2 n m)) = ix1 n :=
    funext fun a => Fin.ext (by match a with | ⟨0, _⟩ => rfl)
  rw [e1, e2]
  show x2 (ix1 m) = x2 (ix1 n) ∧ ¬IntOp.addi (BitVec.ofNat 32 n.val) 0#32 = BitVec.ofNat 32 m.val ↔ _
  rw [iota_eq_iff, eq_comm]

/-- The reference's summand at `(n, m)`: `exp (⟨z_n, z_m⟩ / (1/2))` times the mask bit read as a number. Where the bit
    is `1` the product with `1` keeps `exp (2 · ⟨z_n, z_m⟩)`; where it is `0` the product with `0` is `0`, whatever the
    exponential is. -/
theorem summand_eq (x0 : (⟨S4096x512, .f32⟩ : BufTy).Contents (Elt Ideal))
    (x2 : (⟨S4096, .i32⟩ : BufTy).Contents (Elt Ideal)) (n m : Fin 4096) :
    val_main_v38 (F := Ideal) x0 x2 (ix2 n m) = Cert.Intra.pairTerm (val_main_v7 (F := Ideal) x0) x2 n m := by
  rw [val_main_v38_apply, val_main_v36_apply, val_main_v37_apply, val_main_v23_apply, val_main_v22_apply,
    val_main_cst_5_apply, val_main_v21_apply]
  simp only [Ideal.mulf_def, Ideal.hostUnary_exp_def, Ideal.hostDivf_def, Ideal.ofBits_def]
  have el : ∀ k : Fin 512, lidx_main_v21 (ix2 n m) k = ix2 n k := fun k =>
    funext fun a => Fin.ext (by match a with | ⟨0, _⟩ => rfl | ⟨1, _⟩ => rfl)
  have er : ∀ k : Fin 512, ridx_main_v21 (ix2 n m) k = ix2 m k := fun k =>
    funext fun a => Fin.ext (by match a with | ⟨0, _⟩ => rfl | ⟨1, _⟩ => rfl)
  simp only [el, er]
  rw [div_half]
  unfold Cert.Intra.pairTerm Cert.Intra.rowDot
  by_cases h : x2 (ix1 n) = x2 (ix1 m) ∧ n ≠ m
  · rw [if_pos h, (mask_bit x2 n m).mpr h]
    show _ * (((1#1 : BitVec 1).toNat : ℝ) : EReal) = _
    simp
  · rw [if_neg h, eq_zero_of_ne_one (fun hb => h ((mask_bit x2 n m).mp hb))]
    show _ * (((0#1 : BitVec 1).toNat : ℝ) : EReal) = _
    simp

/-- Row `n` of the reference's masked sum: the initial value `0` plus the sum over the columns `m` of the summands
    above, which is `Cert.Intra.intra` of that matrix and the labels. -/
theorem ref_intra (x0 : (⟨S4096x512, .f32⟩ : BufTy).Contents (Elt Ideal))
    (x2 : (⟨S4096, .i32⟩ : BufTy).Contents (Elt Ideal)) (n : Fin 4096) :
    Cert.ReferenceIdeal.Read.val_main_v39 (F := Ideal) x0 x2 (ValueIdx.ix1 n)
      = Cert.Intra.intra (Cert.ReferenceIdeal.Read.val_main_v7 (F := Ideal) x0) x2 n := by
  rw [val_main_v39_apply, val_main_cst_6_apply]
  simp only [Ideal.ofBits_def, Ideal.ofBits_zero_f32, zero_add]
  unfold Cert.Intra.intra
  refine Finset.sum_congr rfl fun m _ => ?_
  have e : idx_main_v39 (ix1 n) m = ix2 n m :=
    funext fun a => Fin.ext (by match a with | ⟨0, _⟩ => rfl | ⟨1, _⟩ => rfl)
  rw [e]
  exact summand_eq x0 x2 n m

end Cert.RefIntra

end
-- ==== Proof.KI.Result.lean ====
/-
  The kernel program's result is the reference's.

  The region's column, entry `n`, is the sum over all rows `m` of the pair term of the normalised matrix and the
  labels as the region finds them (the value leg); those are the reference's normalised matrix and the label vector
  (the host stretch before the region); the reference's own row sum is the same sum (its reading at an index). Both
  programs then apply the same closing stretch to the same per-sample exponentials.
-/
import proofs.«158266_j31018253811874_1_alg».proof.Proof.KI.Host
import proofs.«158266_j31018253811874_1_alg».proof.Proof.KI.Value
import proofs.«158266_j31018253811874_1_alg».proof.Proof.RefIntra

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The label vector and the first input, as launched. -/
abbrev labels (c : Dev nD) : Vec Ideal S4096 .i32 := m ((c : Thread nD τ).loc main_arg2)
abbrev firstArg (c : Dev nD) : Vec Ideal S4096x512 .f32 := m ((c : Thread nD τ).loc main_arg0)

/-- The labels column at row `n` is label `n`. -/
theorem V1_v22_apply (c : Dev nD) (n : Fin 4096) :
    labCol (V1 m ρ) c (ix2 n 0) = labels m c (ix1 n) := by
  show W1 m ρ c (Proc.devRef .tc main_v22) (ix2 n 0) = _
  rw [W1_v22]
  exact Cert.LibColumn.shapeCast_a_a1_apply _ _ n 0

/-- The labels row at column `k` is label `k`. -/
theorem V1_v23_apply (c : Dev nD) (k : Fin 4096) :
    labRow (V1 m ρ) c (ix2 0 k) = labels m c (ix1 k) := by
  show W1 m ρ c (Proc.devRef .tc main_v23) (ix2 0 k) = _
  rw [W1_v23]
  exact shapeCast_a_1a_apply _ _ 0 k

/-- The matrix the region reads, at an entry, is the reference's normalised matrix there: a change of float format
    is the identity over the extended reals. -/
theorem V1_v21_apply (c : Dev nD) (i : S4096x512.Idx) :
    rowsOf (V1 m ρ) c i = Cert.ReferenceIdeal.Read.val_main_v7 (F := Ideal) (firstArg m c) i := by
  show W1 m ρ c (Proc.devRef .tc main_v21) i = _
  rw [W1_v21]
  rfl

/-- The region's result array at its exit is the column of per-row totals. -/
theorem out_eq (c : Dev nD) : W2 m ρ c (Proc.devRef .tc main_v24) = resultCol (V1 m ρ) c :=
  (W2_out m ρ c).trans (final_eq (V1 m ρ) c)

/-- A row's total is the reference's row sum: the same pair terms of the same matrix and labels. -/
theorem total_eq (c : Dev nD) (n : Fin 4096) :
    total (V1 m ρ) c n = Cert.ReferenceIdeal.Read.val_main_v39 (F := Ideal) (firstArg m c) (labels m c) (ix1 n) := by
  rw [Cert.RefIntra.ref_intra]
  unfold Cert.Intra.intra total
  refine Finset.sum_congr rfl fun k _ => ?_
  unfold Cert.Intra.pairTerm Cert.KernelIdeal.Hand.pairTerm Cert.Intra.rowDot
  have hz : rowsOf (V1 m ρ) c = Cert.ReferenceIdeal.Read.val_main_v7 (F := Ideal) (firstArg m c) := funext (V1_v21_apply m ρ c)
  rw [V1_v22_apply m ρ c n, V1_v23_apply m ρ c k, hz]

/-- The region's column, flattened, is the reference's row sums. -/
theorem column_eq (c : Dev nD) :
    shapeCast S4096 (resultCol (V1 m ρ) c) Facts₀.shapeCasts_S4096x1_S4096
      = Cert.ReferenceIdeal.Read.val_main_v39 (F := Ideal) (firstArg m c) (labels m c) := by
  funext i
  obtain ⟨n, rfl⟩ : ∃ n : Fin 4096, i = ix1 n := ⟨i 0, eq_ix1 i⟩
  refine (Cert.LibColumn.shapeCast_a1_a_apply _ _ n).trans ?_
  exact total_eq m ρ c n

/-- THE RESULT: the kernel program's result buffer ends at the reference's result of the same three arguments. -/
theorem result_eq (c : Dev nD) :
    W3 m ρ c (Proc.devRef .tc main_v31)
      = Cert.ReferenceIdeal.Read.val_main_v45 (F := Ideal) (m ((c : Thread nD τ).loc main_arg0)) (m ((c : Thread nD τ).loc main_arg1))
          (m ((c : Thread nD τ).loc main_arg2)) := by
  rw [W3_result, ref_closing, out_eq, column_eq, W2_of_ne m ρ c _ (StableHlo.devRef_ne_of_ne (by decide)), W1_v20]

end Cert.KernelIdeal.Hand

end
-- ==== Proof.lean ====
/-
  The certificate's five claims for the pairwise contrastive loss.

  Both programs normalise the rows of the first input and of its adversarial twin, take for each sample the
  exponential of twice the inner product of the two normalised rows, add to it the sum over the OTHER same-label rows
  of `exp (2 · ⟨z_n, z_m⟩)`, and return the mean of `-log` of the resulting ratio. They differ only in how that sum
  is reached: the kernel tile by tile (512×512 inner products scaled by 2, a select on the mask, a row sum added to
  a running column over the eight column tiles of a row tile), the reference in one piece (all inner products
  divided by 1/2, a product with the mask read as 0 or 1, one row sum). Over the extended reals the two agree for
  every input: dividing by 1/2 is doubling, the product with a 0/1 number is the selection, and a sum of extended
  reals may be regrouped; no finiteness is used. The three frames: each program terminates without a fault and
  leaves its three arguments as launched — for the two kernel programs by running @main segment by segment with the
  kernel's body run symbolically in its two cases, for the reference by its run read back.
-/
import proofs.«158266_j31018253811874_1_alg».proof.Defs
import proofs.«158266_j31018253811874_1_alg».proof.Proof.K.Frame
import proofs.«158266_j31018253811874_1_alg».proof.Proof.KI.Frame
import proofs.«158266_j31018253811874_1_alg».proof.Proof.KI.Result
import proofs.«158266_j31018253811874_1_alg».proof.Proof.Gen.Kernel
import proofs.«158266_j31018253811874_1_alg».proof.Proof.Gen.KernelIdeal
import proofs.«158266_j31018253811874_1_alg».proof.Proof.Gen.ReferenceIdeal
import proofs.«158266_j31018253811874_1_alg».proof.Proof.Gen.ReferenceIdeal.Run
import proofs.«158266_j31018253811874_1_alg».proof.Proof.Gen.ReferenceIdeal.Read
import proofs.«158266_j31018253811874_1_alg».proof.Proof.Gen.Pre_finite_inputs
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Hand.frame (F := Bits) m ρ

/-- So does the kernel program read over the extended reals. -/
theorem frame_ki : Cert.frame_KernelIdeal := fun m ρ _ => Cert.KernelIdeal.Hand.frame (F := Ideal) m ρ

/-- The reference is a line of host operations: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the same extended real. -/
theorem algebraic : Cert.algebraic_KernelIdeal_ReferenceIdeal := by
  intro m ρ m' ρ' _ hagree
  refine ⟨fun c => Cert.KernelIdeal.Hand.W3 m ρ c (Proc.devRef .tc Cert.KernelIdeal.main_v31), ?_, ?_⟩
  · exact (θ_run Cert.KernelIdeal.defs _ _).mono (fun r h c =>
      ⟨h c _ (Cert.KernelIdeal.Hand.mem_uc Cert.KernelIdeal.main_v31 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c)⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v45_eq, (hagree c).1, (hagree c).2.1, (hagree c).2.2]
    exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
